-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x256 .f32) (main_arg1 : IVec S1600000 32) (main_arg2 : IVec S1600000 32) (main_arg3 : FVec F S1600000 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x256 : Shape := ⟨2, ![50000, 256]⟩
abbrev S1600000 : Shape := ⟨1, ![1600000]⟩
abbrev S256x128 : Shape := ⟨2, ![256, 128]⟩
abbrev S128 : Shape := ⟨1, ![128]⟩
abbrev S50000x128 : Shape := ⟨2, ![50000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 30
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S50000x128, .bf16⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .bf16⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S50000x128, .f32⟩
  | .hbm, ⟨22, _⟩ => ⟨S1600000x1, .i32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .bf16⟩
  | .local _ .vmem, ⟨4, _⟩ => ⟨S5000x128, .bf16⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S5000x256_S256x128_S5000x128_1_0_0_1_n_n_wf : DotDims.WF S5000x256 S256x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S1600000 : Shape := ⟨1, ![1600000]⟩
abbrev S256x128 : Shape := ⟨2, ![256, 128]⟩
abbrev S128 : Shape := ⟨1, ![128]⟩
abbrev S50000x128 : Shape := ⟨2, ![50000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S50000x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S50000x128, .f32⟩
  | .hbm, ⟨21, _⟩ => ⟨S1600000x1, .i32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.Product.lean ====
/-
  The matrix product both programs compute before the sparse aggregation, as ONE function of the two argument
  arrays read at the extended reals: entry (r, c) of the product of a [50000, 256] array with a [256, 128] array is
  the sum over k of x (r, k) * w (k, c). No order of summation and no blocking is left in it: the extended reals
  under + are a commutative monoid, so the sum over the 256 contraction coordinates is a plain finite sum.
-/
import Idealize.ShloMosaic.PureOps.Ideal
import Idealize.ShloMosaic.Lib.ValueIdx

noncomputable section

namespace Cert.Product

open Idealize.ShloMosaic Idealize.ShloMosaic.ValueIdx

/-- Row r of the left factor at contraction coordinate k. -/
abbrev lhsAt (i : (⟨2, ![50000, 128]⟩ : Shape).Idx) (k : Fin 256) : (⟨2, ![50000, 256]⟩ : Shape).Idx :=
  ix2 (n0 := 50000) (n1 := 256) ⟨(i 0).val, (i 0).isLt⟩ k

/-- Column c of the right factor at contraction coordinate k. -/
abbrev rhsAt (i : (⟨2, ![50000, 128]⟩ : Shape).Idx) (k : Fin 256) : (⟨2, ![256, 128]⟩ : Shape).Idx :=
  ix2 (n0 := 256) (n1 := 128) k ⟨(i 1).val, (i 1).isLt⟩

/-- The product x · w, entry by entry: the sum over the contraction coordinate of the factors' products. -/
def prod (x : (⟨2, ![50000, 256]⟩ : Shape).Idx → EReal) (w : (⟨2, ![256, 128]⟩ : Shape).Idx → EReal) :
    (⟨2, ![50000, 128]⟩ : Shape).Idx → EReal :=
  fun i => ∑ k : Fin 256, x (lhsAt i k) * w (rhsAt i k)

theorem prod_apply (x : (⟨2, ![50000, 256]⟩ : Shape).Idx → EReal) (w : (⟨2, ![256, 128]⟩ : Shape).Idx → EReal)
    (i : (⟨2, ![50000, 128]⟩ : Shape).Idx) : prod x w i = ∑ k : Fin 256, x (lhsAt i k) * w (rhsAt i k) := rfl

end Cert.Product

end
-- ==== Proof.BlockProduct.lean ====
/-
  One grid point of the kernel: the body rounds its [5000, 256] block of x and the whole of w to bf16 (the identity
  at the extended reals), multiplies them on the matrix unit into a zero accumulator, and rounds the [5000, 128]
  result to bf16 (the identity again). So the stored block, at local row p and column q, is the sum over k of
  x0 (p, k) * x1 (k, q): the accumulator contributes 0 and the contraction has one axis of extent 256.
-/
import proofs.«156468_j14474039787903_2_alg».proof.Proof.Gen.KernelIdeal.Skeleton
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx

/-- The left operand's index of the block product at output (p, q) and contraction index κ: row p, column κ. -/
theorem lhs_row (j : S5000x128.Idx) (κ : dot_S5000x256_S256x128_S5000x128_1_0_0_1_n_n.contr.Idx) :
    (dot_S5000x256_S256x128_S5000x128_1_0_0_1_n_n.lhsIdx j κ 0).val = (j 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

theorem lhs_col (j : S5000x128.Idx) (κ : dot_S5000x256_S256x128_S5000x128_1_0_0_1_n_n.contr.Idx) :
    (dot_S5000x256_S256x128_S5000x128_1_0_0_1_n_n.lhsIdx j κ 1).val = (κ ⟨0, by decide⟩).val :=
  dot_S5000x256_S256x128_S5000x128_1_0_0_1_n_n.lhsIdx_val_of_single rfl j κ

theorem rhs_row (j : S5000x128.Idx) (κ : dot_S5000x256_S256x128_S5000x128_1_0_0_1_n_n.contr.Idx) :
    (dot_S5000x256_S256x128_S5000x128_1_0_0_1_n_n.rhsIdx j κ 0).val = (κ ⟨0, by decide⟩).val :=
  dot_S5000x256_S256x128_S5000x128_1_0_0_1_n_n.rhsIdx_val_of_single rfl j κ

/-- The right operand's index: row κ, column q. -/
theorem rhs_col (j : S5000x128.Idx) (κ : dot_S5000x256_S256x128_S5000x128_1_0_0_1_n_n.contr.Idx) :
    (dot_S5000x256_S256x128_S5000x128_1_0_0_1_n_n.rhsIdx j κ 1).val = (j 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The stored block at (p, q): the sum over k of x0 (p, k) * x1 (k, q). -/
theorem pay_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  refine (Ideal.matmul_constant_zero_apply (φ₁ := .bf16) (φ₂ := .bf16) dot_S5000x256_S256x128_S5000x128_1_0_0_1_n_n none
    (x0 : FVec Ideal S5000x256 .bf16) (x1 : FVec Ideal S256x128 .bf16) (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q)
      ((contrEquiv1 dot_S5000x256_S256x128_S5000x128_1_0_0_1_n_n 256 rfl rfl).symm k) = ix2 p k :=
    funext fun a => Fin.ext (by
      match a with
      | ⟨0, _⟩ => exact lhs_row _ _
      | ⟨1, _⟩ => exact (lhs_col _ _).trans hk)
  have er : dot_S5000x256_S256x128_S5000x128_1_0_0_1_n_n.rhsIdx (ix2 p q)
      ((contrEquiv1 dot_S5000x256_S256x128_S5000x128_1_0_0_1_n_n 256 rfl rfl).symm k) = ix2 k q :=
    funext fun a => Fin.ext (by
      match a with
      | ⟨0, _⟩ => exact (rhs_row _ _).trans hk
      | ⟨1, _⟩ => exact rhs_col _ _)
  rw [el, er]

end Cert.KernelIdeal.Block

end
-- ==== Proof.KernelArray.lean ====
/-
  The kernel's intermediate array after its ten grid points. Point t reads rows 5000 t … 5000 t + 4999 of x and the
  whole of w, and writes back rows 5000 t … 5000 t + 4999 of the [50000, 128] array: entry (p, q) of its block is the
  sum over k of x (5000 t + p, k) * w (k, q), which is entry (5000 t + p, q) of the product x · w. Row r lies in the
  block of point r / 5000, so the ten blocks cover the array, and the array ends holding the product.
-/
import proofs.«156468_j14474039787903_2_alg».proof.Proof.Gen.KernelIdeal.Frame
import proofs.«156468_j14474039787903_2_alg».proof.Proof.Product
import proofs.«156468_j14474039787903_2_alg».proof.Proof.BlockProduct
import Idealize.ShloMosaic.Lib.Pipeline.Value

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- A block of rows of the product is the block product of the matching rows of x with the whole of w: if the
    left block is x read at rows base + p, the right block is w itself, and the output block sits at rows
    base + p, then the stored block at j is the product at the array index of j. -/
theorem block_entry (X : S50000x256.Idx → EReal) (Wm : S256x128.Idx → EReal) (base : Nat)
    (inX : S5000x256.Idx → S50000x256.Idx) (inW : S256x128.Idx → S256x128.Idx) (out : S5000x128.Idx → S50000x128.Idx)
    (hX0 : ∀ y, (inX y 0).val = base + (y 0).val) (hX1 : ∀ y, (inX y 1).val = (y 1).val)
    (hW0 : ∀ y, (inW y 0).val = (y 0).val) (hW1 : ∀ y, (inW y 1).val = (y 1).val)
    (hO0 : ∀ j, (out j 0).val = base + (j 0).val) (hO1 : ∀ j, (out j 1).val = (j 1).val)
    (j : S5000x128.Idx) :
    k0_pay1 (F := Ideal) (fun y => X (inX y)) (fun y => Wm (inW y)) j = Cert.Product.prod X Wm (out j) := by
  obtain ⟨p, q, rfl⟩ : ∃ (p : Fin 5000) (q : Fin 128), j = ix2 p q := ⟨j 0, j 1, eq_ix2 j⟩
  rw [Cert.KernelIdeal.Block.pay_apply, Cert.Product.prod_apply]
  refine Finset.sum_congr rfl fun k _ => ?_
  have el : inX (ix2 p k) = Cert.Product.lhsAt (out (ix2 p q)) k := funext fun a => Fin.ext (by
    match a with
    | ⟨0, _⟩ => exact (hX0 (ix2 p k)).trans (hO0 (ix2 p q)).symm
    | ⟨1, _⟩ => exact hX1 (ix2 p k))
  have er : inW (ix2 k q) = Cert.Product.rhsAt (out (ix2 p q)) k := funext fun a => Fin.ext (by
    match a with
    | ⟨0, _⟩ => exact hW0 (ix2 k q)
    | ⟨1, _⟩ => exact (hW1 (ix2 k q)).trans (hO1 (ix2 p q)).symm)
  rw [el, er]

/-- The printed index maps over the grid: x's window and the output's move down the rows with the point, w's stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the argument arrays. -/
theorem flushed_eq (c : Dev nD) (t : Fin cfg0.N) :
    (dats m 0 c).flushed 2 t = ((cfg0.win 2).blk t).view.read (Elt Ideal)
      (Cert.Product.prod (V m c main_arg0) (V m c main_arg4)) := by
  show (cfg0.win 2).cut (grid0.coords t) ((dats m 0 c).after 2 t) = _
  rw [after0_2]
  unfold out0_2
  rw [View.canon_unit_zero zero_offsets]
  simp only [View.ld_unit_zero (S := S5000x256) zero_offsets, View.ld_unit_zero (S := S256x128) zero_offsets]
  obtain ⟨e0, e1, e2, e3, e4, e5⟩ := idx_facts t
  funext j
  show k0_pay1 (F := Ideal) (iblk m c 0 t) (iblk m c 1 t) j
    = Cert.Product.prod (V m c main_arg0) (V m c main_arg4) (((cfg0.win 2).blk t).view.emb j)
  refine block_entry (V m c main_arg0) (V m c main_arg4) (t.val * 5000)
    ((cfg0.win 0).blk t).view.emb ((cfg0.win 1).blk t).view.emb ((cfg0.win 2).blk t).view.emb ?_ ?_ ?_ ?_ ?_ ?_ j
  · intro y; show win0_0.index t (0 : Fin 2) * 5000 + 1 * (y 0).val = t.val * 5000 + (y 0).val; rw [e0]; omega
  · intro y; show win0_0.index t (1 : Fin 2) * 256 + 1 * (y 1).val = (y 1).val; rw [e1]; omega
  · intro y; show win0_1.index t (0 : Fin 2) * 256 + 1 * (y 0).val = (y 0).val; rw [e2]; omega
  · intro y; show win0_1.index t (1 : Fin 2) * 128 + 1 * (y 1).val = (y 1).val; rw [e3]; omega
  · intro y; show win0_2.index t (0 : Fin 2) * 5000 + 1 * (y 0).val = t.val * 5000 + (y 0).val; rw [e4]; omega
  · intro y; show win0_2.index t (1 : Fin 2) * 128 + 1 * (y 1).val = (y 1).val; rw [e5]; omega

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Row r of the array is written back by point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  refine ⟨t, flush0_2 t, ?_⟩
  rw [mem_blk]
  obtain ⟨e0, e1, e2, e3, e4, e5⟩ := idx_facts t
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- The intermediate array after the region is the product of the argument arrays x and w. -/
theorem final (c : Dev nD) : (dats m 0 c).arrAt 2 cfg0.N
    = Cert.Product.prod (m ((c : Thread nD τ).loc main_arg0)) (m ((c : Thread nD τ).loc main_arg4)) :=
  (dats m 0 c).arrAt_eq_of_cover 2 _ (fun t _ => flushed_eq m c t) cover

end Cert.KernelIdeal.Array

end
-- ==== Proof.Aggregate.lean ====
/-
  What both programs do with the product P = x · w, as ONE function of P and of the other four arguments: a
  negative column index is shifted up by 50000; row e of the gathered array is the row of P that edge e's column
  index names; it is scaled by the edge's value; the scaled rows are added into a zero [50000, 128] array at the
  rows the edges' row indices name; the bias is added along the rows; and the result is the maximum with 0. The
  function is never opened: the two programs agree because they apply it to the same P.
  The reference's P is the host's dot_general of x and w, which at the extended reals is the product entry by
  entry: the sum over the one contracted coordinate k of x (r, k) * w (k, c).
-/
import proofs.«156468_j14474039787903_2_alg».proof.Proof.Gen.ReferenceIdeal.Read
import proofs.«156468_j14474039787903_2_alg».proof.Proof.Product

noncomputable section

namespace Cert.ReferenceIdeal.Agg

open Cert.ReferenceIdeal Cert.ReferenceIdeal.Gen Idealize.ShloMosaic Idealize.ShloMosaic.TcCoe Idealize.SL.Sem

/-- relu (segment_sum (vals · P[cols], rows) + bias), as the host operations spell it. -/
def aggregate (P : (⟨S50000x128, .f32⟩ : BufTy).Contents (Elt Ideal))
    (rows cols : (⟨S1600000, .i32⟩ : BufTy).Contents (Elt Ideal))
    (vals : (⟨S1600000, .f32⟩ : BufTy).Contents (Elt Ideal))
    (bias : (⟨S128, .f32⟩ : BufTy).Contents (Elt Ideal)) : (⟨S50000x128, .f32⟩ : BufTy).Contents (Elt Ideal) :=
  maximumf (F := Ideal) (addf (F := Ideal) (Host.scatterAdd (F := Ideal) scatter_S50000x128_S1600000x1_S1600000x128_1_0_0_1 (broadcastInDim S50000x128 ![] bcast_S_S50000x128 (constant (F := Ideal) S_ .f32 0x00000000#32)) (broadcastInDim S1600000x1 ![0] bcast_S1600000_S1600000x1_0 rows) (mulf (F := Ideal) (broadcastInDim S1600000x128 ![0, 1] bcast_S1600000x1_S1600000x128_0_1 (broadcastInDim S1600000x1 ![0] bcast_S1600000_S1600000x1_0 vals)) (Host.gather gather_S50000x128_S1600000x1_S1600000x128_1_0_n_n_0_1_1128 P (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 50000#32))) cols))))) (broadcastInDim S50000x128 ![0, 1] bcast_S1x128_S50000x128_0_1 (broadcastInDim S1x128 ![1] bcast_S128_S1x128_1 bias))) (broadcastInDim S50000x128 ![] bcast_S_S50000x128 (constant (F := Ideal) S_ .f32 0x00000000#32))

/-- The host's dot_general of x and w is the product, entry by entry. -/
theorem dot_eq_prod (x0 : (⟨S50000x256, .f32⟩ : BufTy).Contents (Elt Ideal)) (x4 : (⟨S256x128, .f32⟩ : BufTy).Contents (Elt Ideal)) :
    Read.val_main_v0 (F := Ideal) x0 x4 = Cert.Product.prod x0 x4 := by
  funext i
  rw [Read.val_main_v0_apply, Cert.Product.prod_apply]
  refine Finset.sum_congr rfl fun k _ => ?_
  have el : Read.lidx_main_v0 i k = Cert.Product.lhsAt i k := funext fun a => Fin.ext (by
    match a with
    | ⟨0, _⟩ => rfl
    | ⟨1, _⟩ => rfl)
  have er : Read.ridx_main_v0 i k = Cert.Product.rhsAt i k := funext fun a => Fin.ext (by
    match a with
    | ⟨0, _⟩ => rfl
    | ⟨1, _⟩ => rfl)
  rw [el, er]

/-- The reference's result is the aggregation of the product. -/
theorem result_eq (x0 : (⟨S50000x256, .f32⟩ : BufTy).Contents (Elt Ideal)) (x1 x2 : (⟨S1600000, .i32⟩ : BufTy).Contents (Elt Ideal))
    (x3 : (⟨S1600000, .f32⟩ : BufTy).Contents (Elt Ideal)) (x4 : (⟨S256x128, .f32⟩ : BufTy).Contents (Elt Ideal))
    (x5 : (⟨S128, .f32⟩ : BufTy).Contents (Elt Ideal)) :
    Read.val_main_v17 (F := Ideal) x0 x1 x2 x3 x4 x5 = aggregate (Cert.Product.prod x0 x4) x1 x2 x3 x5 := by
  rw [← dot_eq_prod]
  rfl

end Cert.ReferenceIdeal.Agg

end
-- ==== Proof.Tail.lean ====
/-
  The kernel program's result. After the region the intermediate array holds the product x · w (as bf16, which at
  the extended reals is the same number); the host operations that follow gather its rows by the column indices,
  widen them to f32 (the identity), scale by the edge values, add them into the rows the row indices name, add the
  bias and take the maximum with 0. That is the aggregation function the reference applies to its own product, so
  the kernel's result is the aggregation of x · w, and no host operation writes an argument array.
-/
import proofs.«156468_j14474039787903_2_alg».proof.Proof.KernelArray
import proofs.«156468_j14474039787903_2_alg».proof.Proof.Aggregate
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- Widening a vector to a larger float format changes no entry at the extended reals. -/
theorem extf_ideal {s : Shape} {φ ψ : FTy} (x : FVec Ideal s φ) (h : φ.bits < ψ.bits) : extf ψ x h = x := rfl

/-- The kernel's host operations after the region, applied to an intermediate array P and the other arguments, are
    the aggregation of P: the two programs spell the same operations, the kernel's with one widening more. -/
theorem tail_eq (P : (⟨S50000x128, .bf16⟩ : BufTy).Contents (Elt Ideal))
    (rows cols : (⟨S1600000, .i32⟩ : BufTy).Contents (Elt Ideal))
    (vals : (⟨S1600000, .f32⟩ : BufTy).Contents (Elt Ideal))
    (bias : (⟨S128, .f32⟩ : BufTy).Contents (Elt Ideal)) :
    maximumf (F := Ideal) (addf (F := Ideal) (Host.scatterAdd (F := Ideal) scatter_S50000x128_S1600000x1_S1600000x128_1_0_0_1 (broadcastInDim S50000x128 ![] bcast_S_S50000x128 (constant (F := Ideal) S_ .f32 0x00000000#32)) (broadcastInDim S1600000x1 ![0] bcast_S1600000_S1600000x1_0 rows) (mulf (F := Ideal) (broadcastInDim S1600000x128 ![0, 1] bcast_S1600000x1_S1600000x128_0_1 (broadcastInDim S1600000x1 ![0] bcast_S1600000_S1600000x1_0 vals)) (extf (F := Ideal) .f32 (Host.gather gather_S50000x128_S1600000x1_S1600000x128_1_0_n_n_0_1_1128 P (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 50000#32))) cols))) bitsLt_bf16_f32))) (broadcastInDim S50000x128 ![0, 1] bcast_S1x128_S50000x128_0_1 (broadcastInDim S1x128 ![1] bcast_S128_S1x128_1 bias))) (broadcastInDim S50000x128 ![] bcast_S_S50000x128 (constant (F := Ideal) S_ .f32 0x00000000#32))
      = Cert.ReferenceIdeal.Agg.aggregate P rows cols vals bias := by
  rw [extf_ideal]
  rfl

/-- @main's result buffer after the host operations that follow the region. -/
theorem tail_value (c : Dev nD) :
    Pipeline.afterTail₀ cfgs (dats m) 0 (V0 m) [hostOps1] c main_v19
      = Cert.ReferenceIdeal.Agg.aggregate
          (Cert.Product.prod (m ((c : Thread nD τ).loc main_arg0)) (m ((c : Thread nD τ).loc main_arg4)))
          (m ((c : Thread nD τ).loc main_arg1)) (m ((c : Thread nD τ).loc main_arg2))
          (m ((c : Thread nD τ).loc main_arg3)) (m ((c : Thread nD τ).loc main_arg5)) := by
  unfold Pipeline.afterTail₀
  have h0 : Pipeline.withArrays (cfgs 0).spec c (V0 m c) (fun w => (dats m 0 c).arrAt w (cfgs 0).N) (Proc.devRef .tc main_v0)
      = Cert.Product.prod (m ((c : Thread nD τ).loc main_arg0)) (m ((c : Thread nD τ).loc main_arg4)) :=
    (Pipeline.withArrays_arr spec0 launch0.win.arr_inj c (V0 m c) (fun w => (dats m 0 c).arrAt w cfg0.N) 2).trans
      (Cert.KernelIdeal.Array.final m c)
  have h1 : Pipeline.withArrays (cfgs 0).spec c (V0 m c) (fun w => (dats m 0 c).arrAt w (cfgs 0).N) (Proc.devRef .tc main_arg1)
      = m ((c : Thread nD τ).loc main_arg1) :=
    Pipeline.withArrays_of_ne _ c (V0 m c) _ main_arg1 (by exact (by decide : ∀ w, Pipeline.arrRef spec0 w ≠ main_arg1))
  have h2 : Pipeline.withArrays (cfgs 0).spec c (V0 m c) (fun w => (dats m 0 c).arrAt w (cfgs 0).N) (Proc.devRef .tc main_arg2)
      = m ((c : Thread nD τ).loc main_arg2) :=
    Pipeline.withArrays_of_ne _ c (V0 m c) _ main_arg2 (by exact (by decide : ∀ w, Pipeline.arrRef spec0 w ≠ main_arg2))
  have h3 : Pipeline.withArrays (cfgs 0).spec c (V0 m c) (fun w => (dats m 0 c).arrAt w (cfgs 0).N) (Proc.devRef .tc main_arg3)
      = m ((c : Thread nD τ).loc main_arg3) :=
    Pipeline.withArrays_of_ne _ c (V0 m c) _ main_arg3 (by exact (by decide : ∀ w, Pipeline.arrRef spec0 w ≠ main_arg3))
  have h5 : Pipeline.withArrays (cfgs 0).spec c (V0 m c) (fun w => (dats m 0 c).arrAt w (cfgs 0).N) (Proc.devRef .tc main_arg5)
      = m ((c : Thread nD τ).loc main_arg5) :=
    Pipeline.withArrays_of_ne _ c (V0 m c) _ main_arg5 (by exact (by decide : ∀ w, Pipeline.arrRef spec0 w ≠ main_arg5))
  generalize Pipeline.withArrays (cfgs 0).spec c (V0 m c) (fun w => (dats m 0 c).arrAt w (cfgs 0).N) = W at h0 h1 h2 h3 h5 ⊢
  simp only [List.flatten_cons, List.flatten_nil, List.append_nil]
  after_results
  rw [h0, h1, h2, h3, h5]
  exact tail_eq _ _ _ _ _

/-- The kernel program's run, read: every weakly fair execution terminates with the result at the aggregation of the
    product x · w and the argument arrays unchanged. -/
theorem run : θ_run defs (onTc (τ := τ) (main (F := Ideal))) ⟨m, fun _ => 0, ρ⟩ fun r => ∀ c : Dev nD,
      r.2.mem ((c.tc : Thread nD τ).loc main_v19) = Cert.ReferenceIdeal.Agg.aggregate
          (Cert.Product.prod (m ((c : Thread nD τ).loc main_arg0)) (m ((c : Thread nD τ).loc main_arg4)))
          (m ((c : Thread nD τ).loc main_arg1)) (m ((c : Thread nD τ).loc main_arg2))
          (m ((c : Thread nD τ).loc main_arg3)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v19 (Pipeline.mem_restRefs_of main_v19 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩)
    (run_main m ρ)

end Cert.KernelIdeal.Tail

end
-- ==== Proof.lean ====
/-
  A graph convolution layer: relu (segment_sum (vals · (x · w)[cols], rows) + bias), for x of 50000 × 256, w of
  256 × 128 and 1600000 edges (row index, column index, value).

  The kernel program computes x · w on the matrix unit in ten blocks of 5000 rows, each block the product of its rows
  of x (rounded to bf16) with w (rounded to bf16) into a zero f32 accumulator, stored as bf16; the host then gathers,
  widens to f32, scales, scatter-adds, adds the bias and takes the maximum with 0. The reference computes x · w by
  one dot_general in f32 and applies the same host operations.

  At the extended reals a change of float format is the identity, so both products are, entry (r, c), the sum over
  the 256 contraction coordinates k of x (r, k) * w (k, c): the kernel's because a block's entry (p, q) at point t is
  that sum at row 5000 t + p and the ten blocks cover the rows (KernelArray), the reference's because that is what
  dot_general means there (Aggregate). Nothing is rearranged beyond the blocking of the rows, so no law of
  arithmetic is needed and the inputs' finiteness is never used. What follows the product is one function of it and
  of the other four arguments, the same for both programs (Aggregate, Tail); it is applied, never opened.

  The idealized kernel is the kernel's own text read at the extended reals (no rewrite was applied), and the three
  frames are the programs' runs with the results dropped.
-/
import proofs.«156468_j14474039787903_2_alg».proof.Defs
import proofs.«156468_j14474039787903_2_alg».proof.Proof.Gen.Kernel
import proofs.«156468_j14474039787903_2_alg».proof.Proof.Gen.Kernel.Skeleton
import proofs.«156468_j14474039787903_2_alg».proof.Proof.Gen.Kernel.Launch
import proofs.«156468_j14474039787903_2_alg».proof.Proof.Gen.Kernel.Points
import proofs.«156468_j14474039787903_2_alg».proof.Proof.Gen.Kernel.Frame
import proofs.«156468_j14474039787903_2_alg».proof.Proof.Gen.KernelIdeal
import proofs.«156468_j14474039787903_2_alg».proof.Proof.Gen.KernelIdeal.Skeleton
import proofs.«156468_j14474039787903_2_alg».proof.Proof.Gen.KernelIdeal.Launch
import proofs.«156468_j14474039787903_2_alg».proof.Proof.Gen.KernelIdeal.Points
import proofs.«156468_j14474039787903_2_alg».proof.Proof.Gen.KernelIdeal.Frame
import proofs.«156468_j14474039787903_2_alg».proof.Proof.Gen.ReferenceIdeal
import proofs.«156468_j14474039787903_2_alg».proof.Proof.Gen.ReferenceIdeal.Run
import proofs.«156468_j14474039787903_2_alg».proof.Proof.Gen.ReferenceIdeal.Read
import proofs.«156468_j14474039787903_2_alg».proof.Proof.Gen.Pre_finite_inputs
import proofs.«156468_j14474039787903_2_alg».proof.Proof.Tail
import Idealize.ShloMosaic.Adequacy
import Idealize.ShloMosaic.Init

noncomputable section

namespace Cert.Proof

open Idealize.ShloMosaic Idealize.ShloMosaic.TcCoe Idealize.SL.Sem

/-- The kernel program at the word level terminates without a fault and leaves its arguments as they were. -/
theorem frame_kernel : Cert.frame_Kernel := fun m ρ _ => Cert.Kernel.Gen.frame m ρ

/-- So does it read at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the six arguments both programs end with the aggregation of the product x · w. -/
theorem algebraic : Cert.algebraic_KernelIdeal_ReferenceIdeal := by
  intro m ρ m' ρ' _ hagree
  refine ⟨fun c => Cert.ReferenceIdeal.Agg.aggregate
      (Cert.Product.prod (m ((c.tc : Thread Cert.KernelIdeal.nD Cert.KernelIdeal.τ).loc Cert.KernelIdeal.main_arg0))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v17_eq _ _ _ _ _ _).trans (Cert.ReferenceIdeal.Agg.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
